-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S2048x3072 : Shape := ⟨2, ![2048, 3072]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x3072 : S_.BroadcastsInDim S2048x3072 (![] : Fin 0 → Fin S2048x3072.rank)
  reducesTo_S2048x3072_S_d0_1 : S2048x3072.ReducesTo [0, 1] S_

variable [Facts]

def fn_part1 {F : FTy → Type} [FloatOps F] (main_arg4 : FVec F S2048x3072 .f32) (main_arg5 : FVec F S2048x3072 .f32) (main_arg6 : FVec F S2048x3072 .f32) (main_v13 : IVec S_ 1) (main_v16 : IVec S2048x3072 1) : IVec S_ 1 :=
  let main_c_5 : IVec S_ 1 := constantI S_ 1 1#1
  let main_v17 : IVec S_ 1 := (fun x v => Host.reduce IntOp.andi x v reducesTo_S2048x3072_S_d0_1 h_S_) main_v16 main_c_5
  let main_v18 : IVec S_ 1 := andi main_v13 main_v17
  let main_v19 : FVec F S2048x3072 .f32 := Host.absf main_arg4
  let main_cst_6 : FVec F S_ .f32 := constant S_ .f32 0x7F800000#32
  let main_v20 : FVec F S2048x3072 .f32 := broadcastInDim S2048x3072 ![] bcast_S_S2048x3072 main_cst_6
  let main_v21 : IVec S2048x3072 1 := cmpf .olt main_v19 main_v20
  let main_c_7 : IVec S_ 1 := constantI S_ 1 1#1
  let main_v22 : IVec S_ 1 := (fun x v => Host.reduce IntOp.andi x v reducesTo_S2048x3072_S_d0_1 h_S_) main_v21 main_c_7
  let main_v23 : IVec S_ 1 := andi main_v18 main_v22
  let main_v24 : FVec F S2048x3072 .f32 := Host.absf main_arg5
  let main_cst_8 : FVec F S_ .f32 := constant S_ .f32 0x7F800000#32
  let main_v25 : FVec F S2048x3072 .f32 := broadcastInDim S2048x3072 ![] bcast_S_S2048x3072 main_cst_8
  let main_v26 : IVec S2048x3072 1 := cmpf .olt main_v24 main_v25
  let main_c_9 : IVec S_ 1 := constantI S_ 1 1#1
  let main_v27 : IVec S_ 1 := (fun x v => Host.reduce IntOp.andi x v reducesTo_S2048x3072_S_d0_1 h_S_) main_v26 main_c_9
  let main_v28 : IVec S_ 1 := andi main_v23 main_v27
  let main_v29 : FVec F S2048x3072 .f32 := Host.absf main_arg6
  let main_cst_10 : FVec F S_ .f32 := constant S_ .f32 0x7F800000#32
  let main_v30 : FVec F S2048x3072 .f32 := broadcastInDim S2048x3072 ![] bcast_S_S2048x3072 main_cst_10
  let main_v31 : IVec S2048x3072 1 := cmpf .olt main_v29 main_v30
  let main_c_11 : IVec S_ 1 := constantI S_ 1 1#1
  let main_v32 : IVec S_ 1 := (fun x v => Host.reduce IntOp.andi x v reducesTo_S2048x3072_S_d0_1 h_S_) main_v31 main_c_11
  let main_v33 : IVec S_ 1 := andi main_v28 main_v32
  main_v33

def fn {F : FTy → Type} [FloatOps F] (main_arg0 : FVec F S4096x1024 .f32) (main_arg1 : FVec F S4096x2048 .f32) (main_arg2 : FVec F S4096x2048 .f32) (main_arg3 : FVec F S2048x3072 .f32) (main_arg4 : FVec F S2048x3072 .f32) (main_arg5 : FVec F S2048x3072 .f32) (main_arg6 : FVec F S2048x3072 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x3072 .f32 := Host.absf main_arg3
  let main_cst_4 : FVec F S_ .f32 := constant S_ .f32 0x7F800000#32
  let main_v15 : FVec F S2048x3072 .f32 := broadcastInDim S2048x3072 ![] bcast_S_S2048x3072 main_cst_4
  let main_v16 : IVec S2048x3072 1 := cmpf .olt main_v14 main_v15
  fn_part1 (F := F) main_arg4 main_arg5 main_arg6 main_v13 main_v16
-- ==== Kernel.lean ====
abbrev S4096x1024 : Shape := ⟨2, ![4096, 1024]⟩
abbrev S4096x2048 : Shape := ⟨2, ![4096, 2048]⟩
abbrev S2048x3072 : Shape := ⟨2, ![2048, 3072]⟩
abbrev S3072x2048 : Shape := ⟨2, ![3072, 2048]⟩
abbrev S512x2048 : Shape := ⟨2, ![512, 2048]⟩
abbrev S512x1024 : Shape := ⟨2, ![512, 1024]⟩
abbrev S512x256 : Shape := ⟨2, ![512, 256]⟩
abbrev S3072x256 : Shape := ⟨2, ![3072, 256]⟩
abbrev S2048x256 : Shape := ⟨2, ![2048, 256]⟩
abbrev S1024x256 : Shape := ⟨2, ![1024, 256]⟩

abbrev nBuf : Space → Nat
  | .hbm => 17
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S3072x2048, .f32⟩
  | .hbm, ⟨8, _⟩ => ⟨S3072x2048, .bf16⟩
  | .hbm, ⟨9, _⟩ => ⟨S3072x2048, .f32⟩
  | .hbm, ⟨10, _⟩ => ⟨S3072x2048, .bf16⟩
  | .hbm, ⟨11, _⟩ => ⟨S3072x2048, .f32⟩
  | .hbm, ⟨12, _⟩ => ⟨S3072x2048, .bf16⟩
  | .hbm, ⟨13, _⟩ => ⟨S3072x2048, .f32⟩
  | .hbm, ⟨14, _⟩ => ⟨S3072x2048, .bf16⟩
  | .hbm, ⟨15, _⟩ => ⟨S4096x2048, .f32⟩
  | .hbm, ⟨16, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S3072x256, .bf16⟩
  | .local _ .vmem, ⟨7, _⟩ => ⟨S3072x256, .bf16⟩
  | .local _ .vmem, ⟨8, _⟩ => ⟨S3072x256, .bf16⟩
  | .local _ .vmem, ⟨9, _⟩ => ⟨S3072x256, .bf16⟩
  | .local _ .vmem, ⟨10, _⟩ => ⟨S3072x256, .bf16⟩
  | .local _ .vmem, ⟨11, _⟩ => ⟨S3072x256, .bf16⟩
  | .local _ .vmem, ⟨12, _⟩ => ⟨S3072x256, .bf16⟩
  | .local _ .vmem, ⟨13, _⟩ => ⟨S3072x256, .bf16⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3072x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3072x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3072x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3072x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  transposes_S2048x3072_S3072x2048_1_0 : S2048x3072.Transposes [1, 0] S3072x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S512x1024_S512x1024_0_0 : ∀ a, (![0, 0] : Fin 2 → Nat) a + S512x1024.size a ≤ S512x1024.size a
  h_S512x1024 : 0 < S512x1024.numel
  inb_S3072x256_S3072x256_0_0 : ∀ a, (![0, 0] : Fin 2 → Nat) a + S3072x256.size a ≤ S3072x256.size a
  h_S3072x256 : 0 < S3072x256.numel
  shapeCasts_S3072x256_S3072x256 : S3072x256.ShapeCasts S3072x256
  slices_S3072x256_o0_0_S2048x256 : S3072x256.Slices ![0, 0] S2048x256
  slices_S3072x256_o2048_0_S1024x256 : S3072x256.Slices ![2048, 0] S1024x256
  inb_S512x256_S512x256_0_0 : ∀ a, (![0, 0] : Fin 2 → Nat) a + S512x256.size a ≤ S512x256.size a
  h_S512x256 : 0 < S512x256.numel
  dot_S512x2048_S2048x256_S512x256_1_0_0_1_n_n_wf : DotDims.WF S512x2048 S2048x256 S512x256 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3072x256.size a ≤ S3072x2048.size a
  hwx0_3 : ∀ i : grid0.Coords, EltTy.bits .bf16 = 32 ∨ (Rect.block (s := S3072x2048) S3072x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3072x256.size a ≤ S3072x2048.size a
  hwx0_4 : ∀ i : grid0.Coords, EltTy.bits .bf16 = 32 ∨ (Rect.block (s := S3072x2048) S3072x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3072x256.size a ≤ S3072x2048.size a
  hwx0_5 : ∀ i : grid0.Coords, EltTy.bits .bf16 = 32 ∨ (Rect.block (s := S3072x2048) S3072x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3072x256.size a ≤ S3072x2048.size a
  hwx0_6 : ∀ i : grid0.Coords, EltTy.bits .bf16 = 32 ∨ (Rect.block (s := S3072x2048) S3072x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S4096x2048.size a
  hwx0_7 : ∀ i : grid0.Coords, EltTy.bits .f32 = 32 ∨ (Rect.block (s := S4096x2048) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S4096x2048.size a
  hwx0_8 : ∀ i : grid0.Coords, EltTy.bits .f32 = 32 ∨ (Rect.block (s := S4096x2048) S512x256.size (cc0_transform_8 i) (hinb0_8 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S3072x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S3072x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S3072x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S3072x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S512x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S2048x3072 : Shape := ⟨2, ![2048, 3072]⟩
abbrev S4096x3072 : Shape := ⟨2, ![4096, 3072]⟩
abbrev S8192x3072 : Shape := ⟨2, ![8192, 3072]⟩
abbrev S3072x8192 : Shape := ⟨2, ![3072, 8192]⟩
abbrev S4096x8192 : Shape := ⟨2, ![4096, 8192]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S4096x3072, .f32⟩
  | .hbm, ⟨8, _⟩ => ⟨S8192x3072, .f32⟩
  | .hbm, ⟨9, _⟩ => ⟨S3072x8192, .f32⟩
  | .hbm, ⟨10, _⟩ => ⟨S4096x8192, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  concatenates_S4096x2048_S4096x1024_S4096x3072_d1 : Shape.Concatenates [S4096x2048, S4096x1024] S4096x3072 1
  concatenates_S2048x3072_S2048x3072_S2048x3072_S2048x3072_S8192x3072_d0 : Shape.Concatenates [S2048x3072, S2048x3072, S2048x3072, S2048x3072] S8192x3072 0
  transposes_S8192x3072_S3072x8192_1_0 : S8192x3072.Transposes [1, 0] S3072x8192
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x3072_S3072x8192_S4096x8192_1_0_0_1_n_n_wf : DotDims.WF S4096x3072 S3072x8192 S4096x8192 [1] [0] [0] [1] [] []

variable [Facts₀]

def dot_S4096x3072_S3072x8192_S4096x8192_1_0_0_1_n_n : DotDims S4096x3072 S3072x8192 S4096x8192 where
  lhsContracting := [1]
  rhsContracting := [0]
  lhsNonContracting := [0]
  rhsNonContracting := [1]
  lhsBatch := []
  rhsBatch := []
  wf := dot_S4096x3072_S3072x8192_S4096x8192_1_0_0_1_n_n_wf

class Facts : Prop extends Facts₀ where

variable [Facts]
-- ==== Proof.Lstm.lean ====
/-
  One step of an LSTM cell, entry by entry, as a function of its seven arguments: the input x [4096, 1024], the previous
  hidden state h [4096, 2048], the previous cell state c [4096, 2048] and four weight matrices W [2048, 3072] whose
  first 2048 columns meet h and whose last 1024 columns meet x.

  The pre-activation of a gate at batch row b and hidden unit j is the inner product of the row [h b, x b] of length
  3072 with row j of the gate's weight matrix. Written as ONE sum over the 3072 columns it is what a single product
  with the concatenated operands computes; written as the sum over the first 2048 columns plus the sum over the last
  1024 it is what two separate products, added, compute. The two are equal in any commutative monoid (`sum_cols`):
  no cancellation and no distributivity is used, so nothing has to be finite.

  The gates are i, f, o = logistic of their pre-activations and the candidate tanh of its own; the new cell state is
  f * c + i * candidate and the new hidden state o * tanh (new cell state). On the extended reals the logistic function
  IS the quotient 1 / (1 + exp (-z)) with the conventions of the quotient and of exp, so an expression spelt with the
  quotient agrees with it everywhere (`one_div_one_add_exp_neg`).
-/
import Idealize.ShloMosaic.PureOps.Ideal
import Idealize.ShloMosaic.Lib.ValueIdx

noncomputable section

open scoped BigOperators

namespace Cert.Lstm

open Idealize.ShloMosaic Idealize.ShloMosaic.ValueIdx

/-! ## The columns of a weight row -/

/-- Column `k` of the part of a weight row that meets the hidden state: the first 2048 of the 3072 columns. -/
def colH (k : Fin 2048) : Fin 3072 := ⟨k.val, by have := k.isLt; omega⟩

/-- Column `k` of the part that meets the input: the last 1024 columns. -/
def colX (k : Fin 1024) : Fin 3072 := ⟨2048 + k.val, by have := k.isLt; omega⟩

/-- A sum over the 3072 columns is the sum over the first 2048 plus the sum over the last 1024. -/
theorem sum_cols {M : Type*} [AddCommMonoid M] (f : Fin 3072 → M) :
    ∑ k : Fin 3072, f k = (∑ k : Fin 2048, f (colH k)) + ∑ k : Fin 1024, f (colX k) :=
  Fin.sum_univ_add (a := 2048) (b := 1024) f

/-! ## The cell -/

/-- The pre-activation of one gate at batch row `b` and hidden unit `j`: row `b` of h against the first 2048 columns
    of row `j` of the gate's weights, plus row `b` of x against the last 1024 columns. -/
def pre (x : (⟨2, ![4096, 1024]⟩ : Shape).Idx → EReal) (h : (⟨2, ![4096, 2048]⟩ : Shape).Idx → EReal)
    (W : (⟨2, ![2048, 3072]⟩ : Shape).Idx → EReal) (b : Fin 4096) (j : Fin 2048) : EReal :=
  (∑ k : Fin 2048, h (ix2 b k) * W (ix2 j (colH k))) + ∑ k : Fin 1024, x (ix2 b k) * W (ix2 j (colX k))

/-- The same inner product read off a tile: 512 rows of h and of x, and 256 hidden units of the weights stored
    transposed, one column per hidden unit, the 3072 weight columns down the rows. -/
def tilePre (xb : (⟨2, ![512, 1024]⟩ : Shape).Idx → EReal) (hb : (⟨2, ![512, 2048]⟩ : Shape).Idx → EReal)
    (wb : (⟨2, ![3072, 256]⟩ : Shape).Idx → EReal) (p : Fin 512) (q : Fin 256) : EReal :=
  (∑ k : Fin 2048, hb (ix2 p k) * wb (ix2 (colH k) q)) + ∑ k : Fin 1024, xb (ix2 p k) * wb (ix2 (colX k) q)

/-- A tile's pre-activation is the cell's when the tile's rows are rows of the arrays and its weight tile is the
    transposed weight rows. -/
theorem tilePre_eq (xb : (⟨2, ![512, 1024]⟩ : Shape).Idx → EReal) (hb : (⟨2, ![512, 2048]⟩ : Shape).Idx → EReal)
    (wb : (⟨2, ![3072, 256]⟩ : Shape).Idx → EReal)
    (x : (⟨2, ![4096, 1024]⟩ : Shape).Idx → EReal) (h : (⟨2, ![4096, 2048]⟩ : Shape).Idx → EReal)
    (W : (⟨2, ![2048, 3072]⟩ : Shape).Idx → EReal) (p : Fin 512) (q : Fin 256) (b : Fin 4096) (j : Fin 2048)
    (hx : ∀ k : Fin 1024, xb (ix2 p k) = x (ix2 b k)) (hh : ∀ k : Fin 2048, hb (ix2 p k) = h (ix2 b k))
    (hw : ∀ k : Fin 3072, wb (ix2 k q) = W (ix2 j k)) :
    tilePre xb hb wb p q = pre x h W b j := by
  unfold tilePre pre
  refine congrArg₂ (· + ·) (Finset.sum_congr rfl fun k _ => ?_) (Finset.sum_congr rfl fun k _ => ?_)
  · rw [hh k, hw (colH k)]
  · rw [hx k, hw (colX k)]

/-- The new cell state from the pre-activations of the input gate, the forget gate and the candidate, and the old
    cell state. -/
def cellC (gi gf gc c : EReal) : EReal := Ideal.logistic gf * c + Ideal.logistic gi * Ideal.tanh gc

/-- The new hidden state: the output gate times tanh of the new cell state. -/
def cellH (gi gf go gc c : EReal) : EReal := Ideal.logistic go * Ideal.tanh (cellC gi gf gc c)

/-- The new cell state, as an array. -/
def nextC (x : (⟨2, ![4096, 1024]⟩ : Shape).Idx → EReal) (h c : (⟨2, ![4096, 2048]⟩ : Shape).Idx → EReal)
    (Wi Wf Wc : (⟨2, ![2048, 3072]⟩ : Shape).Idx → EReal) : (⟨2, ![4096, 2048]⟩ : Shape).Idx → EReal :=
  fun i => cellC (pre x h Wi (i 0) (i 1)) (pre x h Wf (i 0) (i 1)) (pre x h Wc (i 0) (i 1)) (c i)

/-- The new hidden state, as an array. -/
def nextH (x : (⟨2, ![4096, 1024]⟩ : Shape).Idx → EReal) (h c : (⟨2, ![4096, 2048]⟩ : Shape).Idx → EReal)
    (Wi Wf Wo Wc : (⟨2, ![2048, 3072]⟩ : Shape).Idx → EReal) : (⟨2, ![4096, 2048]⟩ : Shape).Idx → EReal :=
  fun i => cellH (pre x h Wi (i 0) (i 1)) (pre x h Wf (i 0) (i 1)) (pre x h Wo (i 0) (i 1)) (pre x h Wc (i 0) (i 1)) (c i)

/-- The new cell state at the index whose coordinates are `b` and `j`. -/
theorem nextC_apply (x : (⟨2, ![4096, 1024]⟩ : Shape).Idx → EReal) (h c : (⟨2, ![4096, 2048]⟩ : Shape).Idx → EReal)
    (Wi Wf Wc : (⟨2, ![2048, 3072]⟩ : Shape).Idx → EReal) (i : (⟨2, ![4096, 2048]⟩ : Shape).Idx)
    (b : Fin 4096) (j : Fin 2048) (h0 : (i 0).val = b.val) (h1 : (i 1).val = j.val) :
    nextC x h c Wi Wf Wc i = cellC (pre x h Wi b j) (pre x h Wf b j) (pre x h Wc b j) (c (ix2 b j)) := by
  obtain rfl : i = ix2 b j := funext fun a => Fin.ext (by
    match a with
    | ⟨0, _⟩ => exact h0
    | ⟨1, _⟩ => exact h1)
  rfl

/-- The new hidden state at the index whose coordinates are `b` and `j`. -/
theorem nextH_apply (x : (⟨2, ![4096, 1024]⟩ : Shape).Idx → EReal) (h c : (⟨2, ![4096, 2048]⟩ : Shape).Idx → EReal)
    (Wi Wf Wo Wc : (⟨2, ![2048, 3072]⟩ : Shape).Idx → EReal) (i : (⟨2, ![4096, 2048]⟩ : Shape).Idx)
    (b : Fin 4096) (j : Fin 2048) (h0 : (i 0).val = b.val) (h1 : (i 1).val = j.val) :
    nextH x h c Wi Wf Wo Wc i
      = cellH (pre x h Wi b j) (pre x h Wf b j) (pre x h Wo b j) (pre x h Wc b j) (c (ix2 b j)) := by
  obtain rfl : i = ix2 b j := funext fun a => Fin.ext (by
    match a with
    | ⟨0, _⟩ => exact h0
    | ⟨1, _⟩ => exact h1)
  rfl

/-! ## The logistic function spelt as a quotient -/

/-- The f32 pattern of 1.0 denotes the real number 1. -/
theorem one_f32 : Ideal.ofBits .f32 0x3F800000#32 = 1 := by
  simp [Ideal.ofBits, Ideal.ieee, -EReal.coe_mul]; norm_num

/-- `1 / (1 + exp (-z))`, the ones spelt as the f32 pattern of 1.0, is the logistic function at every extended real. -/
theorem one_div_one_add_exp_neg (z : EReal) :
    Ideal.div (Ideal.ofBits .f32 0x3F800000#32) (Ideal.ofBits .f32 0x3F800000#32 + Ideal.exp (-z)) = Ideal.logistic z := by
  rw [one_f32]; rfl

end Cert.Lstm

end
-- ==== Proof.RefCell.lean ====
/-
  The reference's two results are the LSTM cell's arrays.

  The reference joins h and x into one [4096, 3072] array and the four weight matrices into one [8192, 3072] array,
  multiplies the first by the transpose of the second — one inner product over 3072 columns per entry of a
  [4096, 8192] array — and cuts that array into the four gates' [4096, 2048] pre-activations. Read at an index: a
  column below 2048 of the joined row is a column of h and one from 2048 on a column of x; row 2048 g + j of the joined
  weights is row j of gate g's matrix; the sum over 3072 columns splits into the cell's two sums (`Cert.Lstm.sum_cols`).
  The gates are then the logistic function spelt as negate, exponential, add and divide, which is the logistic
  function on the extended reals (`Cert.Lstm.one_div_one_add_exp_neg`).
-/
import proofs.«121271_j33036888441242_2_alg».proof.Proof.Gen.ReferenceIdeal.Read
import proofs.«121271_j33036888441242_2_alg».proof.Proof.Lstm

noncomputable section

open scoped BigOperators

namespace Cert.ReferenceIdeal.Cell

open Cert.ReferenceIdeal Cert.ReferenceIdeal.Read Cert.Lstm Idealize.ShloMosaic Idealize.ShloMosaic.ValueIdx

variable (x0 : (⟨S4096x1024, .f32⟩ : BufTy).Contents (Elt Ideal)) (x1 x2 : (⟨S4096x2048, .f32⟩ : BufTy).Contents (Elt Ideal))
  (x3 x4 x5 x6 : (⟨S2048x3072, .f32⟩ : BufTy).Contents (Elt Ideal))

/-! ## The joined arrays read at an index -/

/-- A column below 2048 of the joined row [h, x] is a column of h. -/
theorem joined_h (q : S4096x3072.Idx) (b : Fin 4096) (k : Fin 2048) (h0 : (q 0).val = b.val) (h1 : (q 1).val = k.val) :
    val_main_v0 (F := Ideal) x0 x1 q = x1 (ix2 b k) := by
  unfold val_main_v0
  refine concatenate_pair_apply_left 1 x1 x0 _ q rfl (ix2 b k) fun a => ?_
  match a with
  | ⟨0, _⟩ => exact h0.symm
  | ⟨1, _⟩ => exact h1.symm

/-- A column from 2048 on of the joined row is a column of x. -/
theorem joined_x (q : S4096x3072.Idx) (b : Fin 4096) (k : Fin 1024) (h0 : (q 0).val = b.val) (h1 : (q 1).val = 2048 + k.val) :
    val_main_v0 (F := Ideal) x0 x1 q = x0 (ix2 b k) := by
  unfold val_main_v0
  refine concatenate_pair_apply_right 1 x1 x0 _ q rfl rfl (ix2 b k) (fun a ha => ?_) ?_
  · match a with
    | ⟨0, _⟩ => exact h0.symm
    | ⟨1, _⟩ => exact absurd rfl ha
  · show k.val + 2048 = (q 1).val
    omega

/-- Row `off + j` of the joined weights is row `j` of the gate's matrix: the four cases. -/
theorem joined_Wi (q : S8192x3072.Idx) (j : Fin 2048) (k : Fin 3072) (h0 : (q 0).val = 0 + j.val) (h1 : (q 1).val = k.val) :
    val_main_v1 (F := Ideal) x3 x4 x5 x6 q = x3 (ix2 j k) := by
  unfold val_main_v1
  refine concatenate_apply_piece 0 _ _ q 0 (by show (0 : Nat) < 4; decide) S2048x3072 x3 rfl rfl 0 rfl (ix2 j k) (fun a ha => ?_) ?_
  · match a with
    | ⟨0, _⟩ => exact absurd rfl ha
    | ⟨1, _⟩ => exact h1.symm
  · show 0 + j.val = (q 0).val
    omega

theorem joined_Wf (q : S8192x3072.Idx) (j : Fin 2048) (k : Fin 3072) (h0 : (q 0).val = 2048 + j.val) (h1 : (q 1).val = k.val) :
    val_main_v1 (F := Ideal) x3 x4 x5 x6 q = x4 (ix2 j k) := by
  unfold val_main_v1
  refine concatenate_apply_piece 0 _ _ q 1 (by show (1 : Nat) < 4; decide) S2048x3072 x4 rfl rfl 2048 rfl (ix2 j k) (fun a ha => ?_) ?_
  · match a with
    | ⟨0, _⟩ => exact absurd rfl ha
    | ⟨1, _⟩ => exact h1.symm
  · show 2048 + j.val = (q 0).val
    omega

theorem joined_Wo (q : S8192x3072.Idx) (j : Fin 2048) (k : Fin 3072) (h0 : (q 0).val = 4096 + j.val) (h1 : (q 1).val = k.val) :
    val_main_v1 (F := Ideal) x3 x4 x5 x6 q = x5 (ix2 j k) := by
  unfold val_main_v1
  refine concatenate_apply_piece 0 _ _ q 2 (by show (2 : Nat) < 4; decide) S2048x3072 x5 rfl rfl 4096 rfl (ix2 j k) (fun a ha => ?_) ?_
  · match a with
    | ⟨0, _⟩ => exact absurd rfl ha
    | ⟨1, _⟩ => exact h1.symm
  · show 4096 + j.val = (q 0).val
    omega

theorem joined_Wc (q : S8192x3072.Idx) (j : Fin 2048) (k : Fin 3072) (h0 : (q 0).val = 6144 + j.val) (h1 : (q 1).val = k.val) :
    val_main_v1 (F := Ideal) x3 x4 x5 x6 q = x6 (ix2 j k) := by
  unfold val_main_v1
  refine concatenate_apply_piece 0 _ _ q 3 (by show (3 : Nat) < 4; decide) S2048x3072 x6 rfl rfl 6144 rfl (ix2 j k) (fun a ha => ?_) ?_
  · match a with
    | ⟨0, _⟩ => exact absurd rfl ha
    | ⟨1, _⟩ => exact h1.symm
  · show 6144 + j.val = (q 0).val
    omega

/-! ## One entry of the big product is one gate's pre-activation -/

/-- Entry (b, off + j) of the [4096, 8192] product is the pre-activation at (b, j) of the gate whose weight rows sit at
    rows `off …` of the joined weights (`hW`). -/
theorem product_apply (W : (⟨S2048x3072, .f32⟩ : BufTy).Contents (Elt Ideal)) (off : Nat)
    (hW : ∀ (q : S8192x3072.Idx) (j : Fin 2048) (k : Fin 3072), (q 0).val = off + j.val → (q 1).val = k.val →
      val_main_v1 (F := Ideal) x3 x4 x5 x6 q = W (ix2 j k))
    (i : S4096x8192.Idx) (b : Fin 4096) (j : Fin 2048) (h0 : (i 0).val = b.val) (h1 : (i 1).val = off + j.val) :
    val_main_v3 (F := Ideal) x0 x1 x3 x4 x5 x6 i = pre x0 x1 W b j := by
  rw [val_main_v3_apply, sum_cols]
  unfold pre
  refine congrArg₂ (· + ·) (Finset.sum_congr rfl fun k _ => ?_) (Finset.sum_congr rfl fun k _ => ?_)
  · rw [joined_h x0 x1 (lidx_main_v3 i (colH k)) b k h0 rfl, val_main_v2_apply,
      hW (idx_main_v2 (ridx_main_v3 i (colH k))) j (colH k) h1 rfl]
  · rw [joined_x x0 x1 (lidx_main_v3 i (colX k)) b k h0 rfl, val_main_v2_apply,
      hW (idx_main_v2 (ridx_main_v3 i (colX k))) j (colX k) h1 rfl]

/-! ## The results -/

/-- The reference's second result is the new cell state. -/
theorem result_c : val_main_v29 (F := Ideal) x0 x1 x2 x3 x4 x5 x6 = nextC x0 x1 x2 x3 x4 x6 := by
  funext i
  obtain ⟨b, j, rfl⟩ : ∃ (b : Fin 4096) (j : Fin 2048), i = ix2 b j := ⟨i 0, i 1, eq_ix2 i⟩
  rw [nextC_apply x0 x1 x2 x3 x4 x6 (ix2 b j) b j rfl rfl]
  unfold cellC
  rw [← one_div_one_add_exp_neg, ← one_div_one_add_exp_neg]
  rw [← product_apply x0 x1 x3 x4 x5 x6 x3 0 (joined_Wi x3 x4 x5 x6) (idx_main_v4 (ix2 b j)) b j rfl (Nat.zero_add _).symm,
    ← product_apply x0 x1 x3 x4 x5 x6 x4 2048 (joined_Wf x3 x4 x5 x6) (idx_main_v5 (ix2 b j)) b j rfl rfl,
    ← product_apply x0 x1 x3 x4 x5 x6 x6 6144 (joined_Wc x3 x4 x5 x6) (idx_main_v7 (ix2 b j)) b j rfl rfl]
  rw [← val_main_v4_apply, ← val_main_v5_apply, ← val_main_v7_apply]
  rfl

/-- The reference's first result is the new hidden state. -/
theorem result_h : val_main_v31 (F := Ideal) x0 x1 x2 x3 x4 x5 x6 = nextH x0 x1 x2 x3 x4 x5 x6 := by
  funext i
  obtain ⟨b, j, rfl⟩ : ∃ (b : Fin 4096) (j : Fin 2048), i = ix2 b j := ⟨i 0, i 1, eq_ix2 i⟩
  rw [nextH_apply x0 x1 x2 x3 x4 x5 x6 (ix2 b j) b j rfl rfl]
  unfold cellH
  rw [← nextC_apply x0 x1 x2 x3 x4 x6 (ix2 b j) b j rfl rfl, ← result_c, ← one_div_one_add_exp_neg]
  rw [← product_apply x0 x1 x3 x4 x5 x6 x5 4096 (joined_Wo x3 x4 x5 x6) (idx_main_v6 (ix2 b j)) b j rfl rfl]
  rw [← val_main_v6_apply]
  rfl

end Cert.ReferenceIdeal.Cell

end
-- ==== Proof.Tile.lean ====
/-
  What the kernel body computes on one tile, entry by entry.

  At a grid point the body holds 512 rows of h and of x, a [512, 256] tile of c, and for each gate a [3072, 256] tile of
  the gate's weights stored transposed (one column per hidden unit). For each gate it multiplies the h rows by the first
  2048 rows of the weight tile, the x rows by the last 1024 rows, and adds the two products: entry (p, q) is the tile
  form of the cell's pre-activation (`Cert.Lstm.tilePre`) — a matrix product into a zero accumulator read at an entry is
  the sum over the contracted axis of the operands' products, and rounding the operands to bf16 is the identity on the
  extended reals. The rest of the body is pointwise: the two stores hold the cell's new cell state and new hidden state
  of the four pre-activations and the c tile.
-/
import proofs.«121271_j33036888441242_2_alg».proof.Proof.Gen.KernelIdeal.Skeleton
import proofs.«121271_j33036888441242_2_alg».proof.Proof.Lstm
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Cert.Lstm
open Idealize.ShloMosaic Idealize.ShloMosaic.ValueIdx

/-- One gate's pre-activation tile as the body computes it: the two products, added. -/
def gateTile (x0 : FVec Ideal S512x2048 .f32) (x1 : FVec Ideal S512x1024 .f32) (w : FVec Ideal S3072x256 .bf16) : FVec Ideal S512x256 .f32 :=
  addf
    (matmul dot_S512x2048_S2048x256_S512x256_1_0_0_1_n_n none (k0_pay3 x0)
      (extractStridedSlice S2048x256 ![0, 0] (shapeCast S3072x256 w shapeCasts_S3072x256_S3072x256) slices_S3072x256_o0_0_S2048x256)
      (constant S512x256 .f32 0x00000000#32))
    (matmul dot_S512x1024_S1024x256_S512x256_1_0_0_1_n_n none (k0_pay4 x1)
      (extractStridedSlice S1024x256 ![2048, 0] (shapeCast S3072x256 w shapeCasts_S3072x256_S3072x256) slices_S3072x256_o2048_0_S1024x256)
      (constant S512x256 .f32 0x00000000#32))

/-- The input gate's tile: the logistic function of its pre-activation tile; likewise the forget and output gates, and
    the candidate with tanh. -/
theorem pay5_eq (x0 : FVec Ideal S512x2048 .f32) (x1 : FVec Ideal S512x1024 .f32) (w : FVec Ideal S3072x256 .bf16) :
    k0_pay5 x0 x1 w = logistic (gateTile x0 x1 w) := rfl
theorem pay6_eq (x0 : FVec Ideal S512x2048 .f32) (x1 : FVec Ideal S512x1024 .f32) (w : FVec Ideal S3072x256 .bf16) :
    k0_pay6 x0 x1 w = logistic (gateTile x0 x1 w) := rfl
theorem pay7_eq (x0 : FVec Ideal S512x2048 .f32) (x1 : FVec Ideal S512x1024 .f32) (w : FVec Ideal S3072x256 .bf16) :
    k0_pay7 x0 x1 w = logistic (gateTile x0 x1 w) := rfl
theorem pay8_eq (x0 : FVec Ideal S512x2048 .f32) (x1 : FVec Ideal S512x1024 .f32) (w : FVec Ideal S3072x256 .bf16) :
    k0_pay8 x0 x1 w = tanh (gateTile x0 x1 w) := rfl

/-! ## The two products read at an entry -/

/-- The operand indices of the two products: the left operand is read at the entry's row, the right at its column. -/
theorem lhsH_0 (i : S512x256.Idx) (r : dot_S512x2048_S2048x256_S512x256_1_0_0_1_n_n.contr.Idx) :
    (dot_S512x2048_S2048x256_S512x256_1_0_0_1_n_n.lhsIdx i r 0).val = (i 0).val := by
  unfold DotDims.lhsIdx
  rw [dif_neg (show ¬(0 : Fin S512x2048.rank) ∈ dot_S512x2048_S2048x256_S512x256_1_0_0_1_n_n.lhsBatch by decide),
    dif_pos (show (0 : Fin S512x2048.rank) ∈ dot_S512x2048_S2048x256_S512x256_1_0_0_1_n_n.lhsNonContracting by decide)]
  rfl
theorem rhsH_1 (i : S512x256.Idx) (r : dot_S512x2048_S2048x256_S512x256_1_0_0_1_n_n.contr.Idx) :
    (dot_S512x2048_S2048x256_S512x256_1_0_0_1_n_n.rhsIdx i r 1).val = (i 1).val := by
  unfold DotDims.rhsIdx
  rw [dif_neg (show ¬(1 : Fin S2048x256.rank) ∈ dot_S512x2048_S2048x256_S512x256_1_0_0_1_n_n.rhsBatch by decide),
    dif_pos (show (1 : Fin S2048x256.rank) ∈ dot_S512x2048_S2048x256_S512x256_1_0_0_1_n_n.rhsNonContracting by decide)]
  rfl
theorem lhsX_0 (i : S512x256.Idx) (r : dot_S512x1024_S1024x256_S512x256_1_0_0_1_n_n.contr.Idx) :
    (dot_S512x1024_S1024x256_S512x256_1_0_0_1_n_n.lhsIdx i r 0).val = (i 0).val := by
  unfold DotDims.lhsIdx
  rw [dif_neg (show ¬(0 : Fin S512x1024.rank) ∈ dot_S512x1024_S1024x256_S512x256_1_0_0_1_n_n.lhsBatch by decide),
    dif_pos (show (0 : Fin S512x1024.rank) ∈ dot_S512x1024_S1024x256_S512x256_1_0_0_1_n_n.lhsNonContracting by decide)]
  rfl
theorem rhsX_1 (i : S512x256.Idx) (r : dot_S512x1024_S1024x256_S512x256_1_0_0_1_n_n.contr.Idx) :
    (dot_S512x1024_S1024x256_S512x256_1_0_0_1_n_n.rhsIdx i r 1).val = (i 1).val := by
  unfold DotDims.rhsIdx
  rw [dif_neg (show ¬(1 : Fin S1024x256.rank) ∈ dot_S512x1024_S1024x256_S512x256_1_0_0_1_n_n.rhsBatch by decide),
    dif_pos (show (1 : Fin S1024x256.rank) ∈ dot_S512x1024_S1024x256_S512x256_1_0_0_1_n_n.rhsNonContracting by decide)]
  rfl

/-- Entry (p, q) of the h rows times the first 2048 rows of a weight tile. -/
theorem productH_apply (x0 : FVec Ideal S512x2048 .f32) (w : FVec Ideal S3072x256 .bf16) (p : Fin 512) (q : Fin 256) :
    matmul dot_S512x2048_S2048x256_S512x256_1_0_0_1_n_n none (k0_pay3 x0)
      (extractStridedSlice S2048x256 ![0, 0] (shapeCast S3072x256 w shapeCasts_S3072x256_S3072x256) slices_S3072x256_o0_0_S2048x256)
      (constant S512x256 .f32 0x00000000#32) (ix2 p q)
    = ∑ k : Fin 2048, x0 (ix2 p k) * w (ix2 (colH k) q) := by
  refine (Ideal.matmul_constant_zero_apply dot_S512x2048_S2048x256_S512x256_1_0_0_1_n_n none _ _ (ix2 p q)).trans ?_
  rw [← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  refine congrArg₂ (· * ·) ?_ ?_
  · show x0 _ = x0 _
    refine congrArg x0 (funext fun a => Fin.ext ?_)
    match a with
    | ⟨0, _⟩ => exact lhsH_0 _ _
    | ⟨1, _⟩ => exact (dot_S512x2048_S2048x256_S512x256_1_0_0_1_n_n.lhsIdx_val_of_single rfl _ _).trans hk
  · rw [shapeCast_self]
    refine extractStridedSlice_apply ![0, 0] w slices_S3072x256_o0_0_S2048x256 _ (ix2 (colH k) q) fun a => ?_
    match a with
    | ⟨0, _⟩ =>
      have e := (dot_S512x2048_S2048x256_S512x256_1_0_0_1_n_n.rhsIdx_val_of_single rfl (ix2 p q)
        ((contrEquiv1 dot_S512x2048_S2048x256_S512x256_1_0_0_1_n_n 2048 rfl rfl).symm k)).trans hk
      show k.val = 0 + _
      rw [Nat.zero_add]; exact e.symm
    | ⟨1, _⟩ =>
      have e := rhsH_1 (ix2 p q) ((contrEquiv1 dot_S512x2048_S2048x256_S512x256_1_0_0_1_n_n 2048 rfl rfl).symm k)
      show q.val = 0 + _
      rw [Nat.zero_add]; exact e.symm

/-- Entry (p, q) of the x rows times the last 1024 rows of a weight tile. -/
theorem productX_apply (x1 : FVec Ideal S512x1024 .f32) (w : FVec Ideal S3072x256 .bf16) (p : Fin 512) (q : Fin 256) :
    matmul dot_S512x1024_S1024x256_S512x256_1_0_0_1_n_n none (k0_pay4 x1)
      (extractStridedSlice S1024x256 ![2048, 0] (shapeCast S3072x256 w shapeCasts_S3072x256_S3072x256) slices_S3072x256_o2048_0_S1024x256)
      (constant S512x256 .f32 0x00000000#32) (ix2 p q)
    = ∑ k : Fin 1024, x1 (ix2 p k) * w (ix2 (colX k) q) := by
  refine (Ideal.matmul_constant_zero_apply dot_S512x1024_S1024x256_S512x256_1_0_0_1_n_n none _ _ (ix2 p q)).trans ?_
  rw [← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  refine congrArg₂ (· * ·) ?_ ?_
  · show x1 _ = x1 _
    refine congrArg x1 (funext fun a => Fin.ext ?_)
    match a with
    | ⟨0, _⟩ => exact lhsX_0 _ _
    | ⟨1, _⟩ => exact (dot_S512x1024_S1024x256_S512x256_1_0_0_1_n_n.lhsIdx_val_of_single rfl _ _).trans hk
  · rw [shapeCast_self]
    refine extractStridedSlice_apply ![2048, 0] w slices_S3072x256_o2048_0_S1024x256 _ (ix2 (colX k) q) fun a => ?_
    match a with
    | ⟨0, _⟩ =>
      have e := (dot_S512x1024_S1024x256_S512x256_1_0_0_1_n_n.rhsIdx_val_of_single rfl (ix2 p q)
        ((contrEquiv1 dot_S512x1024_S1024x256_S512x256_1_0_0_1_n_n 1024 rfl rfl).symm k)).trans hk
      exact congrArg (2048 + ·) e.symm
    | ⟨1, _⟩ =>
      have e := rhsX_1 (ix2 p q) ((contrEquiv1 dot_S512x1024_S1024x256_S512x256_1_0_0_1_n_n 1024 rfl rfl).symm k)
      show q.val = 0 + _
      rw [Nat.zero_add]; exact e.symm

/-- Entry (p, q) of a gate's tile is the tile form of the cell's pre-activation. -/
theorem gateTile_apply (x0 : FVec Ideal S512x2048 .f32) (x1 : FVec Ideal S512x1024 .f32) (w : FVec Ideal S3072x256 .bf16)
    (p : Fin 512) (q : Fin 256) : gateTile x0 x1 w (ix2 p q) = tilePre x1 x0 w p q := by
  unfold gateTile tilePre
  rw [addf_apply, productH_apply, productX_apply]

/-! ## The two stores -/

/-- Entry (p, q) of what the body stores as the new cell state. -/
theorem storeC_apply (x0 : FVec Ideal S512x2048 .f32) (x1 : FVec Ideal S512x1024 .f32) (x2 : FVec Ideal S512x256 .f32)
    (wi wf wc : FVec Ideal S3072x256 .bf16) (p : Fin 512) (q : Fin 256) :
    k0_pay1 (F := Ideal) (k0_pay5 x0 x1 wi) (k0_pay6 x0 x1 wf) (k0_pay8 x0 x1 wc) x2 (ix2 p q)
      = cellC (tilePre x1 x0 wi p q) (tilePre x1 x0 wf p q) (tilePre x1 x0 wc p q) (x2 (ix2 p q)) := by
  rw [pay5_eq, pay6_eq, pay8_eq, ← gateTile_apply, ← gateTile_apply, ← gateTile_apply]
  rfl

/-- Entry (p, q) of what the body stores as the new hidden state. -/
theorem storeH_apply (x0 : FVec Ideal S512x2048 .f32) (x1 : FVec Ideal S512x1024 .f32) (x2 : FVec Ideal S512x256 .f32)
    (wi wf wo wc : FVec Ideal S3072x256 .bf16) (p : Fin 512) (q : Fin 256) :
    k0_pay2 (F := Ideal) (k0_pay5 x0 x1 wi) (k0_pay6 x0 x1 wf) (k0_pay7 x0 x1 wo) (k0_pay8 x0 x1 wc) x2 (ix2 p q)
      = cellH (tilePre x1 x0 wi p q) (tilePre x1 x0 wf p q) (tilePre x1 x0 wo p q) (tilePre x1 x0 wc p q) (x2 (ix2 p q)) := by
  unfold cellH
  rw [← storeC_apply, pay7_eq, ← gateTile_apply x0 x1 wo]
  rfl

end Cert.KernelIdeal.Tile

end
-- ==== Proof.Blocks.lean ====
/-
  The kernel's two result arrays are the LSTM cell's arrays.

  The grid has 8 × 8 points; point t has a tile row I and a tile column J, both below 8 (`tile_facts`, decided over
  the 64 points). The windows of h and x hold rows 512 I … of their arrays, all columns; the window of c and the two
  result windows hold rows 512 I …, columns 256 J …; each weight window holds all 3072 rows and columns 256 J … of
  the array the host prepared before the call, which is the gate's weight matrix transposed (rounding it to bf16 is the
  identity on the extended reals). So at point t the body's tile pre-activations are the cell's at rows 512 I + p and
  hidden units 256 J + q, what the point writes back is its block of the cell's array, and the 64 blocks cover the
  [4096, 2048] arrays.
-/
import proofs.«121271_j33036888441242_2_alg».proof.Proof.Gen.KernelIdeal.Value
import proofs.«121271_j33036888441242_2_alg».proof.Proof.Tile
import proofs.«121271_j33036888441242_2_alg».proof.Proof.Lstm
import Idealize.ShloMosaic.Lib.Pipeline.Value
import Idealize.ShloMosaic.Lib.ValueIdx
import Idealize.ShloMosaic.Lib.StableHlo.Run
import Idealize.ShloMosaic.Lib.Tactic

noncomputable section

open scoped BigOperators

namespace Cert.KernelIdeal.Cell

open Cert.KernelIdeal Cert.KernelIdeal.Gen Cert.KernelIdeal.Value Cert.KernelIdeal.Tile Cert.Lstm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The zero offset of a whole-tile access. -/
theorem hz : (![0, 0] : Fin 2 → Nat) = fun _ => 0 := funext fun a => by fin_cases a <;> rfl

/-! ## The weights as the call finds them: the gate's matrix transposed -/

/-- When the call is entered the input gate's weight array is the matrix transposed (and rounded to bf16, the identity
    here); entry (k, j) of it is entry (j, k) of the matrix. The same for the other three gates. -/
theorem entry_Wi (c : Dev nD) : (V m c main_v1 : S3072x2048.Idx → EReal)
    = (truncf (F := Ideal) .bf16 (transpose S3072x2048 [1, 0] (m ((c : Thread nD τ).loc main_arg3)) transposes_S2048x3072_S3072x2048_1_0) bitsLt_bf16_f32 : S3072x2048.Idx → EReal) := by
  dsimp only [Gen.V, Gen.hostOps0]; after_results

theorem Wi_apply (c : Dev nD) (k : Fin 3072) (j : Fin 2048) :
    (V m c main_v1 : S3072x2048.Idx → EReal) (ix2 k j) = m ((c : Thread nD τ).loc main_arg3) (ix2 j k) := by
  rw [entry_Wi]
  exact transpose_apply [1, 0] _ transposes_S2048x3072_S3072x2048_1_0 (ix2 k j) (ix2 j k) (fun b => match b with
    | ⟨0, _⟩ => rfl
    | ⟨1, _⟩ => rfl)

theorem entry_Wf (c : Dev nD) : (V m c main_v3 : S3072x2048.Idx → EReal)
    = (truncf (F := Ideal) .bf16 (transpose S3072x2048 [1, 0] (m ((c : Thread nD τ).loc main_arg4)) transposes_S2048x3072_S3072x2048_1_0) bitsLt_bf16_f32 : S3072x2048.Idx → EReal) := by
  dsimp only [Gen.V, Gen.hostOps0]; after_results

theorem Wf_apply (c : Dev nD) (k : Fin 3072) (j : Fin 2048) :
    (V m c main_v3 : S3072x2048.Idx → EReal) (ix2 k j) = m ((c : Thread nD τ).loc main_arg4) (ix2 j k) := by
  rw [entry_Wf]
  exact transpose_apply [1, 0] _ transposes_S2048x3072_S3072x2048_1_0 (ix2 k j) (ix2 j k) (fun b => match b with
    | ⟨0, _⟩ => rfl
    | ⟨1, _⟩ => rfl)

theorem entry_Wo (c : Dev nD) : (V m c main_v5 : S3072x2048.Idx → EReal)
    = (truncf (F := Ideal) .bf16 (transpose S3072x2048 [1, 0] (m ((c : Thread nD τ).loc main_arg5)) transposes_S2048x3072_S3072x2048_1_0) bitsLt_bf16_f32 : S3072x2048.Idx → EReal) := by
  dsimp only [Gen.V, Gen.hostOps0]; after_results

theorem Wo_apply (c : Dev nD) (k : Fin 3072) (j : Fin 2048) :
    (V m c main_v5 : S3072x2048.Idx → EReal) (ix2 k j) = m ((c : Thread nD τ).loc main_arg5) (ix2 j k) := by
  rw [entry_Wo]
  exact transpose_apply [1, 0] _ transposes_S2048x3072_S3072x2048_1_0 (ix2 k j) (ix2 j k) (fun b => match b with
    | ⟨0, _⟩ => rfl
    | ⟨1, _⟩ => rfl)

theorem entry_Wc (c : Dev nD) : (V m c main_v7 : S3072x2048.Idx → EReal)
    = (truncf (F := Ideal) .bf16 (transpose S3072x2048 [1, 0] (m ((c : Thread nD τ).loc main_arg6)) transposes_S2048x3072_S3072x2048_1_0) bitsLt_bf16_f32 : S3072x2048.Idx → EReal) := by
  dsimp only [Gen.V, Gen.hostOps0]; after_results

theorem Wc_apply (c : Dev nD) (k : Fin 3072) (j : Fin 2048) :
    (V m c main_v7 : S3072x2048.Idx → EReal) (ix2 k j) = m ((c : Thread nD τ).loc main_arg6) (ix2 j k) := by
  rw [entry_Wc]
  exact transpose_apply [1, 0] _ transposes_S2048x3072_S3072x2048_1_0 (ix2 k j) (ix2 j k) (fun b => match b with
    | ⟨0, _⟩ => rfl
    | ⟨1, _⟩ => rfl)

/-! ## The grid: which tile each point works on -/

/-- Decided over the 64 points: every window's block index in terms of the result window's, whose two coordinates are
    the point's tile row and tile column, both below 8. -/
theorem tile_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = win0_7.index t (1 : Fin 2)
    ∧ win0_3.index t (0 : Fin 2) = 0 ∧ win0_3.index t (1 : Fin 2) = win0_7.index t (1 : Fin 2)
    ∧ win0_4.index t (0 : Fin 2) = 0 ∧ win0_4.index t (1 : Fin 2) = win0_7.index t (1 : Fin 2)
    ∧ win0_5.index t (0 : Fin 2) = 0 ∧ win0_5.index t (1 : Fin 2) = win0_7.index t (1 : Fin 2)
    ∧ win0_6.index t (0 : Fin 2) = 0 ∧ win0_6.index t (1 : Fin 2) = win0_7.index t (1 : Fin 2)
    ∧ win0_8.index t (0 : Fin 2) = win0_7.index t (0 : Fin 2) ∧ win0_8.index t (1 : Fin 2) = win0_7.index t (1 : Fin 2)
    ∧ win0_7.index t (0 : Fin 2) ≤ 7 ∧ win0_7.index t (1 : Fin 2) ≤ 7 :=
  (by decide +kernel : ∀ t : Fin grid0.N, _)

/-- Every tile is some point's. -/
theorem tile_onto : ∀ (I : Fin 8) (J : Fin 8), ∃ t : Fin cfg0.N, win0_7.index t = ![I.val, J.val] :=
  (by decide +kernel : ∀ (I : Fin 8) (J : Fin 8), ∃ t : Fin grid0.N, win0_7.index t = ![I.val, J.val])

/-! ## The windows' blocks at a point, entry by entry -/

/-- Row p of the h window at point t is row 512 I + p of h. -/
theorem blockH_apply (c : Dev nD) (t : Fin cfg0.N) (p : Fin 512) (k : Fin 2048) (b : Fin 4096)
    (hb : b.val = win0_7.index t (0 : Fin 2) * 512 + p.val) :
    (iblk m c 0 t : FVec Ideal S512x2048 .f32) (ix2 p k) = m ((c : Thread nD τ).loc main_arg1) (ix2 b k) := by
  obtain ⟨e0, e1, -⟩ := tile_facts t
  have h : ((cfg0.win 0).blk t).view.emb (ix2 p k) = ix2 b k := by
    funext a; apply Fin.ext
    match a with
    | ⟨0, _⟩ => show win0_0.index t (0 : Fin 2) * 512 + 1 * p.val = b.val; omega
    | ⟨1, _⟩ => show win0_0.index t (1 : Fin 2) * 2048 + 1 * k.val = k.val; omega
  rw [← V_main_arg1 m c]
  show V m c main_arg1 (((cfg0.win 0).blk t).view.emb (ix2 p k)) = V m c main_arg1 (ix2 b k)
  rw [h]

/-- Row p of the x window at point t is row 512 I + p of x. -/
theorem blockX_apply (c : Dev nD) (t : Fin cfg0.N) (p : Fin 512) (k : Fin 1024) (b : Fin 4096)
    (hb : b.val = win0_7.index t (0 : Fin 2) * 512 + p.val) :
    (iblk m c 1 t : FVec Ideal S512x1024 .f32) (ix2 p k) = m ((c : Thread nD τ).loc main_arg0) (ix2 b k) := by
  obtain ⟨-, -, e0, e1, -⟩ := tile_facts t
  have h : ((cfg0.win 1).blk t).view.emb (ix2 p k) = ix2 b k := by
    funext a; apply Fin.ext
    match a with
    | ⟨0, _⟩ => show win0_1.index t (0 : Fin 2) * 512 + 1 * p.val = b.val; omega
    | ⟨1, _⟩ => show win0_1.index t (1 : Fin 2) * 1024 + 1 * k.val = k.val; omega
  rw [← V_main_arg0 m c]
  show V m c main_arg0 (((cfg0.win 1).blk t).view.emb (ix2 p k)) = V m c main_arg0 (ix2 b k)
  rw [h]

/-- Entry (p, q) of the c window at point t is entry (512 I + p, 256 J + q) of c. -/
theorem blockC_apply (c : Dev nD) (t : Fin cfg0.N) (p : Fin 512) (q : Fin 256) (b : Fin 4096) (j : Fin 2048)
    (hb : b.val = win0_7.index t (0 : Fin 2) * 512 + p.val) (hj : j.val = win0_7.index t (1 : Fin 2) * 256 + q.val) :
    (iblk m c 2 t : FVec Ideal S512x256 .f32) (ix2 p q) = m ((c : Thread nD τ).loc main_arg2) (ix2 b j) := by
  obtain ⟨-, -, -, -, e0, e1, -⟩ := tile_facts t
  have h : ((cfg0.win 2).blk t).view.emb (ix2 p q) = ix2 b j := by
    funext a; apply Fin.ext
    match a with
    | ⟨0, _⟩ => show win0_2.index t (0 : Fin 2) * 512 + 1 * p.val = b.val; omega
    | ⟨1, _⟩ => show win0_2.index t (1 : Fin 2) * 256 + 1 * q.val = j.val; omega
  rw [← V_main_arg2 m c]
  show V m c main_arg2 (((cfg0.win 2).blk t).view.emb (ix2 p q)) = V m c main_arg2 (ix2 b j)
  rw [h]

/-- Column q of a weight window at point t is row 256 J + q of the gate's matrix. -/
theorem blockWi_apply (c : Dev nD) (t : Fin cfg0.N) (k : Fin 3072) (q : Fin 256) (j : Fin 2048)
    (hj : j.val = win0_7.index t (1 : Fin 2) * 256 + q.val) :
    (iblk m c 3 t : FVec Ideal S3072x256 .bf16) (ix2 k q) = m ((c : Thread nD τ).loc main_arg3) (ix2 j k) := by
  obtain ⟨-, -, -, -, -, -, e0, e1, -⟩ := tile_facts t
  have h : ((cfg0.win 3).blk t).view.emb (ix2 k q) = ix2 k j := by
    funext a; apply Fin.ext
    match a with
    | ⟨0, _⟩ => show win0_3.index t (0 : Fin 2) * 3072 + 1 * k.val = k.val; omega
    | ⟨1, _⟩ => show win0_3.index t (1 : Fin 2) * 256 + 1 * q.val = j.val; omega
  rw [← Wi_apply m c k j]
  show V m c main_v1 (((cfg0.win 3).blk t).view.emb (ix2 k q)) = V m c main_v1 (ix2 k j)
  rw [h]

/-- Column q of a weight window at point t is row 256 J + q of the gate's matrix. -/
theorem blockWf_apply (c : Dev nD) (t : Fin cfg0.N) (k : Fin 3072) (q : Fin 256) (j : Fin 2048)
    (hj : j.val = win0_7.index t (1 : Fin 2) * 256 + q.val) :
    (iblk m c 4 t : FVec Ideal S3072x256 .bf16) (ix2 k q) = m ((c : Thread nD τ).loc main_arg4) (ix2 j k) := by
  obtain ⟨-, -, -, -, -, -, -, -, e0, e1, -⟩ := tile_facts t
  have h : ((cfg0.win 4).blk t).view.emb (ix2 k q) = ix2 k j := by
    funext a; apply Fin.ext
    match a with
    | ⟨0, _⟩ => show win0_4.index t (0 : Fin 2) * 3072 + 1 * k.val = k.val; omega
    | ⟨1, _⟩ => show win0_4.index t (1 : Fin 2) * 256 + 1 * q.val = j.val; omega
  rw [← Wf_apply m c k j]
  show V m c main_v3 (((cfg0.win 4).blk t).view.emb (ix2 k q)) = V m c main_v3 (ix2 k j)
  rw [h]

/-- Column q of a weight window at point t is row 256 J + q of the gate's matrix. -/
theorem blockWo_apply (c : Dev nD) (t : Fin cfg0.N) (k : Fin 3072) (q : Fin 256) (j : Fin 2048)
    (hj : j.val = win0_7.index t (1 : Fin 2) * 256 + q.val) :
    (iblk m c 5 t : FVec Ideal S3072x256 .bf16) (ix2 k q) = m ((c : Thread nD τ).loc main_arg5) (ix2 j k) := by
  obtain ⟨-, -, -, -, -, -, -, -, -, -, e0, e1, -⟩ := tile_facts t
  have h : ((cfg0.win 5).blk t).view.emb (ix2 k q) = ix2 k j := by
    funext a; apply Fin.ext
    match a with
    | ⟨0, _⟩ => show win0_5.index t (0 : Fin 2) * 3072 + 1 * k.val = k.val; omega
    | ⟨1, _⟩ => show win0_5.index t (1 : Fin 2) * 256 + 1 * q.val = j.val; omega
  rw [← Wo_apply m c k j]
  show V m c main_v5 (((cfg0.win 5).blk t).view.emb (ix2 k q)) = V m c main_v5 (ix2 k j)
  rw [h]

/-- Column q of a weight window at point t is row 256 J + q of the gate's matrix. -/
theorem blockWc_apply (c : Dev nD) (t : Fin cfg0.N) (k : Fin 3072) (q : Fin 256) (j : Fin 2048)
    (hj : j.val = win0_7.index t (1 : Fin 2) * 256 + q.val) :
    (iblk m c 6 t : FVec Ideal S3072x256 .bf16) (ix2 k q) = m ((c : Thread nD τ).loc main_arg6) (ix2 j k) := by
  obtain ⟨-, -, -, -, -, -, -, -, -, -, -, -, e0, e1, -⟩ := tile_facts t
  have h : ((cfg0.win 6).blk t).view.emb (ix2 k q) = ix2 k j := by
    funext a; apply Fin.ext
    match a with
    | ⟨0, _⟩ => show win0_6.index t (0 : Fin 2) * 3072 + 1 * k.val = k.val; omega
    | ⟨1, _⟩ => show win0_6.index t (1 : Fin 2) * 256 + 1 * q.val = j.val; omega
  rw [← Wc_apply m c k j]
  show V m c main_v7 (((cfg0.win 6).blk t).view.emb (ix2 k q)) = V m c main_v7 (ix2 k j)
  rw [h]

/-! ## What a point writes back -/

/-- Point t writes back, as the new hidden state, its block of the cell's array. -/
theorem flushedH_eq (c : Dev nD) (t : Fin cfg0.N) :
    (dats m 0 c).flushed 7 t = ((cfg0.win 7).blk t).view.read (Elt Ideal)
      (nextH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [flushed7]
  unfold out0_7
  rw [View.canon_unit_zero hz]
  simp only [View.ld_unit_zero (S := S512x2048) hz, View.ld_unit_zero (S := S512x1024) hz,
    View.ld_unit_zero (S := S3072x256) hz, View.ld_unit_zero (S := S512x256) hz]
  obtain ⟨-, -, -, -, -, -, -, -, -, -, -, -, -, -, -, -, hI, hJ⟩ := tile_facts t
  funext y
  obtain ⟨p, q, rfl⟩ : ∃ (p : Fin 512) (q : Fin 256), y = ix2 p q := ⟨y 0, y 1, eq_ix2 y⟩
  have hp := p.isLt
  have hq := q.isLt
  obtain ⟨b, hb⟩ : ∃ b : Fin 4096, b.val = win0_7.index t (0 : Fin 2) * 512 + p.val := ⟨⟨_, by omega⟩, rfl⟩
  obtain ⟨j, hj⟩ : ∃ j : Fin 2048, j.val = win0_7.index t (1 : Fin 2) * 256 + q.val := ⟨⟨_, by omega⟩, rfl⟩
  show k0_pay2 (F := Ideal) (k0_pay5 (iblk m c 0 t) (iblk m c 1 t) (iblk m c 3 t)) (k0_pay6 (iblk m c 0 t) (iblk m c 1 t) (iblk m c 4 t))
      (k0_pay7 (iblk m c 0 t) (iblk m c 1 t) (iblk m c 5 t)) (k0_pay8 (iblk m c 0 t) (iblk m c 1 t) (iblk m c 6 t)) (iblk m c 2 t) (ix2 p q)
    = nextH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix2 p q))
  rw [nextH_apply _ _ _ _ _ _ _ (((cfg0.win 7).blk t).view.emb (ix2 p q)) b j
    (by show win0_7.index t (0 : Fin 2) * 512 + 1 * p.val = b.val; omega)
    (by show win0_7.index t (1 : Fin 2) * 256 + 1 * q.val = j.val; omega)]
  refine (storeH_apply (iblk m c 0 t) (iblk m c 1 t) (iblk m c 2 t) (iblk m c 3 t) (iblk m c 4 t) (iblk m c 5 t) (iblk m c 6 t) p q).trans ?_
  rw [tilePre_eq (iblk m c 1 t) (iblk m c 0 t) (iblk m c 3 t) (m ((c : Thread nD τ).loc main_arg0)) (m ((c : Thread nD τ).loc main_arg1)) (m ((c : Thread nD τ).loc main_arg3)) p q b j
      (fun k => blockX_apply m c t p k b hb) (fun k => blockH_apply m c t p k b hb) (fun k => blockWi_apply m c t k q j hj),
    tilePre_eq (iblk m c 1 t) (iblk m c 0 t) (iblk m c 4 t) (m ((c : Thread nD τ).loc main_arg0)) (m ((c : Thread nD τ).loc main_arg1)) (m ((c : Thread nD τ).loc main_arg4)) p q b j
      (fun k => blockX_apply m c t p k b hb) (fun k => blockH_apply m c t p k b hb) (fun k => blockWf_apply m c t k q j hj),
    tilePre_eq (iblk m c 1 t) (iblk m c 0 t) (iblk m c 5 t) (m ((c : Thread nD τ).loc main_arg0)) (m ((c : Thread nD τ).loc main_arg1)) (m ((c : Thread nD τ).loc main_arg5)) p q b j
      (fun k => blockX_apply m c t p k b hb) (fun k => blockH_apply m c t p k b hb) (fun k => blockWo_apply m c t k q j hj),
    tilePre_eq (iblk m c 1 t) (iblk m c 0 t) (iblk m c 6 t) (m ((c : Thread nD τ).loc main_arg0)) (m ((c : Thread nD τ).loc main_arg1)) (m ((c : Thread nD τ).loc main_arg6)) p q b j
      (fun k => blockX_apply m c t p k b hb) (fun k => blockH_apply m c t p k b hb) (fun k => blockWc_apply m c t k q j hj),
    blockC_apply m c t p q b j hb hj]

/-- Point t writes back, as the new cell state, its block of the cell's array. -/
theorem flushedC_eq (c : Dev nD) (t : Fin cfg0.N) :
    (dats m 0 c).flushed 8 t = ((cfg0.win 8).blk t).view.read (Elt Ideal)
      (nextC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) := by
  rw [flushed8]
  unfold out0_8
  rw [View.canon_unit_zero hz]
  simp only [View.ld_unit_zero (S := S512x2048) hz, View.ld_unit_zero (S := S512x1024) hz,
    View.ld_unit_zero (S := S3072x256) hz, View.ld_unit_zero (S := S512x256) hz]
  obtain ⟨-, -, -, -, -, -, -, -, -, -, -, -, -, -, f0, f1, hI, hJ⟩ := tile_facts t
  funext y
  obtain ⟨p, q, rfl⟩ : ∃ (p : Fin 512) (q : Fin 256), y = ix2 p q := ⟨y 0, y 1, eq_ix2 y⟩
  have hp := p.isLt
  have hq := q.isLt
  obtain ⟨b, hb⟩ : ∃ b : Fin 4096, b.val = win0_7.index t (0 : Fin 2) * 512 + p.val := ⟨⟨_, by omega⟩, rfl⟩
  obtain ⟨j, hj⟩ : ∃ j : Fin 2048, j.val = win0_7.index t (1 : Fin 2) * 256 + q.val := ⟨⟨_, by omega⟩, rfl⟩
  show k0_pay1 (F := Ideal) (k0_pay5 (iblk m c 0 t) (iblk m c 1 t) (iblk m c 3 t)) (k0_pay6 (iblk m c 0 t) (iblk m c 1 t) (iblk m c 4 t))
      (k0_pay8 (iblk m c 0 t) (iblk m c 1 t) (iblk m c 6 t)) (iblk m c 2 t) (ix2 p q)
    = nextC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (((cfg0.win 8).blk t).view.emb (ix2 p q))
  rw [nextC_apply _ _ _ _ _ _ (((cfg0.win 8).blk t).view.emb (ix2 p q)) b j
    (by show win0_8.index t (0 : Fin 2) * 512 + 1 * p.val = b.val; omega)
    (by show win0_8.index t (1 : Fin 2) * 256 + 1 * q.val = j.val; omega)]
  refine (storeC_apply (iblk m c 0 t) (iblk m c 1 t) (iblk m c 2 t) (iblk m c 3 t) (iblk m c 4 t) (iblk m c 6 t) p q).trans ?_
  rw [tilePre_eq (iblk m c 1 t) (iblk m c 0 t) (iblk m c 3 t) (m ((c : Thread nD τ).loc main_arg0)) (m ((c : Thread nD τ).loc main_arg1)) (m ((c : Thread nD τ).loc main_arg3)) p q b j
      (fun k => blockX_apply m c t p k b hb) (fun k => blockH_apply m c t p k b hb) (fun k => blockWi_apply m c t k q j hj),
    tilePre_eq (iblk m c 1 t) (iblk m c 0 t) (iblk m c 4 t) (m ((c : Thread nD τ).loc main_arg0)) (m ((c : Thread nD τ).loc main_arg1)) (m ((c : Thread nD τ).loc main_arg4)) p q b j
      (fun k => blockX_apply m c t p k b hb) (fun k => blockH_apply m c t p k b hb) (fun k => blockWf_apply m c t k q j hj),
    tilePre_eq (iblk m c 1 t) (iblk m c 0 t) (iblk m c 6 t) (m ((c : Thread nD τ).loc main_arg0)) (m ((c : Thread nD τ).loc main_arg1)) (m ((c : Thread nD τ).loc main_arg6)) p q b j
      (fun k => blockX_apply m c t p k b hb) (fun k => blockH_apply m c t p k b hb) (fun k => blockWc_apply m c t k q j hj),
    blockC_apply m c t p q b j hb hj]

/-! ## The 64 blocks cover the arrays -/

/-- An index of the array is in point t's block of the hidden-state result iff each coordinate is in the block's range. -/
theorem mem_blockH (t : Fin cfg0.N) (i : S4096x2048.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v8_0).slice (win0_7.rect t)).set ↔ _
  rw [View.set_slice_whole, Rect.mem_set_unit]
  exact Iff.rfl

/-- The same for the cell-state result. -/
theorem mem_blockC (t : Fin cfg0.N) (i : S4096x2048.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v8_1).slice (win0_8.rect t)).set ↔ _
  rw [View.set_slice_whole, Rect.mem_set_unit]
  exact Iff.rfl

/-- Entry (r, s) of a result lies in the block of the point whose tile is (r / 512, s / 256). -/
theorem coverH (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ := tile_onto ⟨(i 0).val / 512, by omega⟩ ⟨(i 1).val / 256, by omega⟩
  have q0 : win0_7.index t (0 : Fin 2) = (i 0).val / 512 := congrFun ht 0
  have q1 : win0_7.index t (1 : Fin 2) = (i 1).val / 256 := congrFun ht 1
  refine ⟨t, flush0_7 t, ?_⟩
  rw [mem_blockH]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

theorem coverC (i : S4096x2048.Idx) : ∃ t : Fin cfg0.N, (cfg0.win 8).flush t = true ∧ i ∈ ((cfg0.win 8).blk t).view.set := by
  have hi0 : (i 0).val < 4096 := (i 0).isLt
  have hi1 : (i 1).val < 2048 := (i 1).isLt
  obtain ⟨t, ht⟩ := tile_onto ⟨(i 0).val / 512, by omega⟩ ⟨(i 1).val / 256, by omega⟩
  have q0 : win0_7.index t (0 : Fin 2) = (i 0).val / 512 := congrFun ht 0
  have q1 : win0_7.index t (1 : Fin 2) = (i 1).val / 256 := congrFun ht 1
  obtain ⟨-, -, -, -, -, -, -, -, -, -, -, -, -, -, f0, f1, -⟩ := tile_facts t
  refine ⟨t, flush0_8 t, ?_⟩
  rw [mem_blockC]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 256 ≤ (i 1).val ∧ (i 1).val < win0_8.index t (1 : Fin 2) * 256 + 256; omega

/-! ## The arrays after the run -/

/-- The first result array ends holding the new hidden state. -/
theorem finalH (c : Dev nD) : (dats m 0 c).arrAt 7 cfg0.N = nextH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 _ (fun t _ => flushedH_eq m c t) coverH

/-- The second result array ends holding the new cell state. -/
theorem finalC (c : Dev nD) : (dats m 0 c).arrAt 8 cfg0.N = nextC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) :=
  (dats m 0 c).arrAt_eq_of_cover 8 _ (fun t _ => flushedC_eq m c t) coverC

/-- The kernel's run: both results at the cell's arrays of the arguments, the arguments unchanged. -/
theorem run : θ_run defs (onTc (τ := τ) (main (F := Ideal))) ⟨m, fun _ => 0, ρ⟩ fun r => ∀ c : Dev nD,
      r.2.mem ((c : Thread nD τ).loc main_v8_0) = nextH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v8_1) = nextC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (finalH m c), (h c).2.1.trans (finalC m c), (h c).2.2⟩)
    (run_blocks m ρ)

end Cert.KernelIdeal.Cell

end
-- ==== Proof.lean ====
/-
  A fused LSTM cell step against its plain jnp form, equal on the extended reals.

  The kernel tiles the [4096, 2048] results 8 × 8. At a tile it holds 512 rows of h and of x, the c tile, and for each of
  the four gates a [3072, 256] tile of the gate's weight matrix transposed; it computes each gate's pre-activation as
  (h rows) · (first 2048 weight rows) + (x rows) · (last 1024 weight rows), applies the logistic function to three of
  them and tanh to the fourth, and stores f * c + i * g and o * tanh (f * c + i * g). The reference joins [h, x] and the
  four weight matrices, takes ONE product with a contraction over all 3072 columns, cuts it into the four gates and
  spells the logistic function as 1 / (1 + exp (-z)).

  Both are the same function of the arguments, entry by entry (Proof/Lstm.lean states it): a sum over 3072 columns is
  the sum over the first 2048 plus the sum over the last 1024 in any commutative monoid, so the split product needs
  neither finiteness nor distributivity; rounding an operand to bf16 is the identity on the extended reals; and the
  logistic function there IS the quotient the reference spells. The precondition is therefore not used by the value
  claim. Proof/RefCell.lean reads the reference's run at an index, Proof/Tile.lean the kernel body's two stores at an
  entry of a tile, Proof/Blocks.lean the windows' blocks at a grid point and the cover of the arrays by the 64 blocks.
  The ideal pass rewrote nothing in the kernel, so `preserves` is `True`.
-/
import proofs.«121271_j33036888441242_2_alg».proof.Defs
import proofs.«121271_j33036888441242_2_alg».proof.Proof.Gen.Kernel
import proofs.«121271_j33036888441242_2_alg».proof.Proof.Gen.Kernel.Frame
import proofs.«121271_j33036888441242_2_alg».proof.Proof.Gen.KernelIdeal
import proofs.«121271_j33036888441242_2_alg».proof.Proof.Gen.KernelIdeal.Frame
import proofs.«121271_j33036888441242_2_alg».proof.Proof.Gen.KernelIdeal.Value
import proofs.«121271_j33036888441242_2_alg».proof.Proof.Gen.ReferenceIdeal
import proofs.«121271_j33036888441242_2_alg».proof.Proof.Gen.ReferenceIdeal.Run
import proofs.«121271_j33036888441242_2_alg».proof.Proof.Gen.ReferenceIdeal.Read
import proofs.«121271_j33036888441242_2_alg».proof.Proof.Gen.Pre_finite_inputs
import proofs.«121271_j33036888441242_2_alg».proof.Proof.Lstm
import proofs.«121271_j33036888441242_2_alg».proof.Proof.RefCell
import proofs.«121271_j33036888441242_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The ideal pass rewrote no operation of the kernel. -/
theorem preserves : Cert.preserves_Kernel_KernelIdeal := trivial

/-- Both programs end with the cell's new hidden state and new cell state of the arguments. -/
theorem algebraic : Cert.algebraic_KernelIdeal_ReferenceIdeal := by
  intro m ρ m' ρ' _ hagree
  refine ⟨fun c => Cert.Lstm.nextH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Lstm.nextC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)),
    Cert.KernelIdeal.Cell.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2⟩
  · rw [Cert.ReferenceIdeal.Read.val_main_v31_eq, Cert.ReferenceIdeal.Cell.result_h, a0, a1, a2, a3, a4, a5, a6]
  · rw [Cert.ReferenceIdeal.Read.val_main_v29_eq, Cert.ReferenceIdeal.Cell.result_c, a0, a1, a2, a3, a4, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
